-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S_ : Shape := ⟨0, ![]⟩

class Facts : Prop where
  bcast_S_S32x64x12x1024 : S_.BroadcastsInDim S32x64x12x1024 (![] : Fin 0 → Fin S32x64x12x1024.rank)
  reducesTo_S32x64x12x1024_S_d0_1_2_3 : S32x64x12x1024.ReducesTo [0, 1, 2, 3] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  main_v18

def fn {F : FTy → Type} [FloatOps F] (main_arg0 : FVec F S32x64x12x1024 .f32) (main_arg1 : FVec F S3x64x64 .f32) (main_arg2 : FVec F S64 .f32) (main_arg3 : FVec F S1024x3072 .f32) : IVec S_ 1 :=
  let main_v0 : FVec F S32x64x12x1024 .f32 := Host.absf main_arg0
  let main_cst : FVec F S_ .f32 := constant S_ .f32 0x7F800000#32
  let main_v1 : FVec F S32x64x12x1024 .f32 := broadcastInDim S32x64x12x1024 ![] bcast_S_S32x64x12x1024 main_cst
  let main_v2 : IVec S32x64x12x1024 1 := cmpf .olt main_v0 main_v1
  let main_c : IVec S_ 1 := constantI S_ 1 1#1
  let main_v3 : IVec S_ 1 := (fun x v => Host.reduce IntOp.andi x v reducesTo_S32x64x12x1024_S_d0_1_2_3 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_v13 main_v16
-- ==== Kernel.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S64x192 : Shape := ⟨2, ![64, 192]⟩
abbrev S3072x8192 : Shape := ⟨2, ![3072, 8192]⟩
abbrev S1024x24576 : Shape := ⟨2, ![1024, 24576]⟩
abbrev S3072x512 : Shape := ⟨2, ![3072, 512]⟩
abbrev S1024x1536 : Shape := ⟨2, ![1024, 1536]⟩
abbrev S1024x512 : Shape := ⟨2, ![1024, 512]⟩
abbrev S8192x64 : Shape := ⟨2, ![8192, 64]⟩
abbrev S8192x192 : Shape := ⟨2, ![8192, 192]⟩
abbrev S393216x64 : Shape := ⟨2, ![393216, 64]⟩
abbrev S32x12x1024x64 : Shape := ⟨4, ![32, 12, 1024, 64]⟩
abbrev S1x12x1024x64 : Shape := ⟨4, ![1, 12, 1024, 64]⟩
abbrev S1x64x12x1024 : Shape := ⟨4, ![1, 64, 12, 1024]⟩
abbrev S12288x64 : Shape := ⟨2, ![12288, 64]⟩
abbrev S1x64 : Shape := ⟨2, ![1, 64]⟩
abbrev S64x12288 : Shape := ⟨2, ![64, 12288]⟩

abbrev nBuf : Space → Nat
  | .hbm => 11
  | .vmem => 13
  | .smem => 0
  | _ => 0

abbrev bufTy : (tb : Table) → Fin (tcTables nBuf tb) → BufTy
  | .hbm, ⟨0, _⟩ => ⟨S32x64x12x1024, .f32⟩
  | .hbm, ⟨1, _⟩ => ⟨S3x64x64, .f32⟩
  | .hbm, ⟨2, _⟩ => ⟨S64, .f32⟩
  | .hbm, ⟨3, _⟩ => ⟨S1024x3072, .f32⟩
  | .hbm, ⟨4, _⟩ => ⟨S64x192, .f32⟩
  | .hbm, ⟨5, _⟩ => ⟨S3072x8192, .f32⟩
  | .hbm, ⟨6, _⟩ => ⟨S1024x3072, .bf16⟩
  | .hbm, ⟨7, _⟩ => ⟨S1024x24576, .bf16⟩
  | .hbm, ⟨8, _⟩ => ⟨S393216x64, .bf16⟩
  | .hbm, ⟨9, _⟩ => ⟨S32x12x1024x64, .bf16⟩
  | .hbm, ⟨10, _⟩ => ⟨S32x64x12x1024, .f32⟩
  | .local _ .vmem, ⟨0, _⟩ => ⟨S1024x3072, .bf16⟩
  | .local _ .vmem, ⟨1, _⟩ => ⟨S64x192, .f32⟩
  | .local _ .vmem, ⟨2, _⟩ => ⟨S3072x512, .f32⟩
  | .local _ .vmem, ⟨3, _⟩ => ⟨S3072x512, .f32⟩
  | .local _ .vmem, ⟨4, _⟩ => ⟨S1024x1536, .bf16⟩
  | .local _ .vmem, ⟨5, _⟩ => ⟨S1024x1536, .bf16⟩
  | .local _ .vmem, ⟨6, _⟩ => ⟨S1x12x1024x64, .bf16⟩
  | .local _ .vmem, ⟨7, _⟩ => ⟨S1x12x1024x64, .bf16⟩
  | .local _ .vmem, ⟨8, _⟩ => ⟨S64, .f32⟩
  | .local _ .vmem, ⟨9, _⟩ => ⟨S1x64x12x1024, .f32⟩
  | .local _ .vmem, ⟨10, _⟩ => ⟨S1x64x12x1024, .f32⟩
  | .local _ .vmem, ⟨11, _⟩ => ⟨S1x64x12x1024, .f32⟩
  | .local _ .vmem, ⟨12, _⟩ => ⟨S1x64x12x1024, .f32⟩
  | _, _ => ⟨S32x64x12x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x12x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x12x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x12x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S3x64x64_S64x192 : S3x64x64.ShapeCasts S64x192
  shapeCasts_S32x64x12x1024_S3072x8192 : S32x64x12x1024.ShapeCasts S3072x8192
  bitsLt_bf16_f32 : FTy.bits .bf16 < FTy.bits .f32
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S1024x512_S8192x64 : S1024x512.ShapeCasts S8192x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  shapeCasts_S8192x192_S1024x1536 : S8192x192.ShapeCasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S1024x24576_S393216x64 : S1024x24576.ShapeCasts S393216x64
  shapeCasts_S393216x64_S32x12x1024x64 : S393216x64.ShapeCasts S32x12x1024x64
  inb_S1x12x1024x64_S1x12x1024x64_0_0_0_0 : ∀ a, (![0, 0, 0, 0] : Fin 4 → Nat) a + S1x12x1024x64.size a ≤ S1x12x1024x64.size a
  h_S1x12x1024x64 : 0 < S1x12x1024x64.numel
  shapeCasts_S1x12x1024x64_S1x12x1024x64 : S1x12x1024x64.ShapeCasts S1x12x1024x64
  shapeCasts_S1x12x1024x64_S12288x64 : S1x12x1024x64.ShapeCasts S12288x64
  inb_S64_S64_0 : ∀ a, (![0] : Fin 1 → Nat) a + S64.size a ≤ S64.size a
  h_S64 : 0 < S64.numel
  shapeCasts_S64_S1x64 : S64.ShapeCasts S1x64
  broadcasts_S1x64_S12288x64 : S1x64.Broadcasts S12288x64
  transposes_S12288x64_p1_0_S64x12288 : S12288x64.Transposes [1, 0] S64x12288
  shapeCasts_S64x12288_S1x64x12x1024 : S64x12288.ShapeCasts S1x64x12x1024
  inb_S1x64x12x1024_S1x64x12x1024_0_0_0_0 : ∀ a, (![0, 0, 0, 0] : Fin 4 → Nat) a + S1x64x12x1024.size a ≤ S1x64x12x1024.size a
  h_S1x64x12x1024 : 0 < S1x64x12x1024.numel
  dot_S1024x3072_S3072x512_S1024x512_1_0_0_1_n_n_wf : DotDims.WF S1024x3072 S3072x512 S1024x512 [1] [0] [0] [1] [] []
  dot_S8192x64_S64x192_S8192x192_1_0_0_1_n_n_wf : DotDims.WF S8192x64 S64x192 S8192x192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S1024x3072.size a
  hwx0_0 : ∀ i : grid0.Coords, EltTy.bits .bf16 = 32 ∨ (Rect.block (s := S1024x3072) S1024x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S3072x8192.size a
  hwx0_2 : ∀ i : grid0.Coords, EltTy.bits .f32 = 32 ∨ (Rect.block (s := S3072x8192) S3072x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S1024x24576.size a
  hwx0_3 : ∀ i : grid0.Coords, EltTy.bits .bf16 = 32 ∨ (Rect.block (s := S1024x24576) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12x1024x64.size a ≤ S32x12x1024x64.size a
  hwx1_0 : ∀ i : grid1.Coords, EltTy.bits .bf16 = 32 ∨ (Rect.block (s := S32x12x1024x64) S1x12x1024x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x12x1024.size a ≤ S32x64x12x1024.size a
  hwx1_2 : ∀ i : grid1.Coords, EltTy.bits .f32 = 32 ∨ (Rect.block (s := S32x64x12x1024) S1x64x12x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x12x1024.size a ≤ S32x64x12x1024.size a
  hwx1_3 : ∀ i : grid1.Coords, EltTy.bits .f32 = 32 ∨ (Rect.block (s := S32x64x12x1024) S1x64x12x1024.size (cc1_transform_3 i) (hinb1_3 i)).WholeWords (EltTy.packing .f32)

variable [Facts₀]

def dot_S1024x3072_S3072x512_S1024x512_1_0_0_1_n_n : DotDims S1024x3072 S3072x512 S1024x512 where
  lhsContracting := [1]
  rhsContracting := [0]
  lhsNonContracting := [0]
  rhsNonContracting := [1]
  lhsBatch := []
  rhsBatch := []
  wf := dot_S1024x3072_S3072x512_S1024x512_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf

abbrev win0_0 : Pipeline.Window sig grid0 :=
  Pipeline.Window.ofSpec (Memref.whole main_v2) S1024x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3072x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x12x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x64x12x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64x12x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S393216x64 : Shape := ⟨2, ![393216, 64]⟩
abbrev S64x192 : Shape := ⟨2, ![64, 192]⟩
abbrev S393216x192 : Shape := ⟨2, ![393216, 192]⟩
abbrev S3072x24576 : Shape := ⟨2, ![3072, 24576]⟩
abbrev S1024x24576 : Shape := ⟨2, ![1024, 24576]⟩
abbrev S1x64 : Shape := ⟨2, ![1, 64]⟩
abbrev S32x12x1024x64 : Shape := ⟨4, ![32, 12, 1024, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x64x12x1024, .f32⟩
  | .hbm, ⟨1, _⟩ => ⟨S3x64x64, .f32⟩
  | .hbm, ⟨2, _⟩ => ⟨S64, .f32⟩
  | .hbm, ⟨3, _⟩ => ⟨S1024x3072, .f32⟩
  | .hbm, ⟨4, _⟩ => ⟨S393216x64, .f32⟩
  | .hbm, ⟨5, _⟩ => ⟨S64x192, .f32⟩
  | .hbm, ⟨6, _⟩ => ⟨S393216x192, .f32⟩
  | .hbm, ⟨7, _⟩ => ⟨S3072x24576, .f32⟩
  | .hbm, ⟨8, _⟩ => ⟨S1024x24576, .f32⟩
  | .hbm, ⟨9, _⟩ => ⟨S393216x64, .f32⟩
  | .hbm, ⟨10, _⟩ => ⟨S1x64, .f32⟩
  | .hbm, ⟨11, _⟩ => ⟨S393216x64, .f32⟩
  | .hbm, ⟨12, _⟩ => ⟨S393216x64, .f32⟩
  | .hbm, ⟨13, _⟩ => ⟨S32x12x1024x64, .f32⟩
  | .hbm, ⟨14, _⟩ => ⟨S32x64x12x1024, .f32⟩
  | .hbm, ⟨15, _⟩ => ⟨S32x64x12x1024, .f32⟩
  | _, _ => ⟨S32x64x12x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S32x64x12x1024_S393216x64 : S32x64x12x1024.ShapeCasts S393216x64
  shapeCasts_S3x64x64_S64x192 : S3x64x64.ShapeCasts S64x192
  shapeCasts_S393216x192_S3072x24576 : S393216x192.ShapeCasts S3072x24576
  shapeCasts_S1024x24576_S393216x64 : S1024x24576.ShapeCasts S393216x64
  bcast_S64_S1x64_1 : S64.BroadcastsInDim S1x64 (![1] : Fin 1 → Fin S1x64.rank)
  bcast_S1x64_S393216x64_0_1 : S1x64.BroadcastsInDim S393216x64 (![0, 1] : Fin 2 → Fin S393216x64.rank)
  shapeCasts_S393216x64_S32x12x1024x64 : S393216x64.ShapeCasts S32x12x1024x64
  transposes_S32x12x1024x64_S32x64x12x1024_0_3_1_2 : S32x12x1024x64.Transposes [0, 3, 1, 2] S32x64x12x1024
  dot_S393216x64_S64x192_S393216x192_1_0_0_1_n_n_wf : DotDims.WF S393216x64 S64x192 S393216x192 [1] [0] [0] [1] [] []
  dot_S1024x3072_S3072x24576_S1024x24576_1_0_0_1_n_n_wf : DotDims.WF S1024x3072 S3072x24576 S1024x24576 [1] [0] [0] [1] [] []

variable [Facts₀]

def dot_S393216x64_S64x192_S393216x192_1_0_0_1_n_n : DotDims S393216x64 S64x192 S393216x192 where
  lhsContracting := [1]
  rhsContracting := [0]
  lhsNonContracting := [0]
  rhsNonContracting := [1]
  lhsBatch := []
  rhsBatch := []
  wf := dot_S393216x64_S64x192_S393216x192_1_0_0_1_n_n_wf
def dot_S1024x3072_S3072x24576_S1024x24576_1_0_0_1_n_n : DotDims S1024x3072 S3072x24576 S1024x24576 where
  lhsContracting := [1]
  rhsContracting := [0]
  lhsNonContracting := [0]
  rhsNonContracting := [1]
  lhsBatch := []
  rhsBatch := []
  wf := dot_S1024x3072_S3072x24576_S1024x24576_1_0_0_1_n_n_wf

class Facts : Prop extends Facts₀ where

variable [Facts]
-- ==== Proof.KernelRun.lean ====
import proofs.«158763_j17841294148276_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.RunValue

open Cert.KernelIdeal Cert.KernelIdeal.Gen Idealize.ShloMosaic Idealize.ShloMosaic.TcCoe Idealize.ShloMosaic.ValueIdx Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the fourth array of the second region: at that region's exit it holds what the region's
    write-backs leave, the fold of its output window over all grid points. -/
theorem W4_main_v6 (c : Dev nD) :
    W4 m ρ c (Proc.devRef .tc main_v6) = (dat1 (V3 m ρ) c).arrAt 3 cfg1.N :=
  W4_arr m ρ c 3

-- the launch lemma's implicit arguments are found by unifying its conclusion with this one, which takes unfolding
-- plain definitions in a metavariable's type
set_option backward.isDefEq.respectTransparency.types false in
/-- From any memory with zero counters, every weakly fair execution of @main on the TensorCores terminates without
    fault, and in every final state the result buffer holds the second region's output array after its last grid
    point — the write-backs of its output window folded over the whole grid, from the contents the region was entered
    with — while the four argument arrays are as launched. The run is the launch over @main's four segments; the last
    thread state holds every unscoped buffer at the last boundary's contents, which is read against the final state,
    the result buffer as the second region's fourth array and each argument walked back through the fold. -/
theorem run_out : θ_run defs (onTc (τ := τ) (main (F := F))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_main_v6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.HostSide.lean ====
import proofs.«158763_j17841294148276_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- Entering the first region, the first reshaped operand holds the second argument as launched, re-indexed row-major
    from 3×64×64 to 64×192: the first host operation wrote it and the two after it write other buffers. -/
theorem V1_v0 (c : Dev nD) : (V1 m ρ c main_v0 : S64x192.Idx → Elt F .f32)
    = shapeCast S64x192 (m ((c.tc : Thread nD τ).loc main_arg1)) shapeCasts_S3x64x64_S64x192 := by
  show StableHlo.after hostOps0 (W0 m ρ c) (Proc.devRef .tc main_v0) = _
  after_results <;> rfl

/-- Entering the first region, the second reshaped operand holds the first argument as launched, re-indexed row-major
    from 32×64×12×1024 to 3072×8192. -/
theorem V1_v1 (c : Dev nD) : (V1 m ρ c main_v1 : S3072x8192.Idx → Elt F .f32)
    = shapeCast S3072x8192 (m ((c.tc : Thread nD τ).loc main_arg0)) shapeCasts_S32x64x12x1024_S3072x8192 := by
  show StableHlo.after hostOps0 (W0 m ρ c) (Proc.devRef .tc main_v1) = _
  after_results <;> rfl

/-- Entering the first region, the converted operand holds the fourth argument as launched, each entry rounded from
    f32 to bf16. -/
theorem V1_v2 (c : Dev nD) : (V1 m ρ c main_v2 : S1024x3072.Idx → Elt F .bf16)
    = truncf .bf16 (m ((c.tc : Thread nD τ).loc main_arg3)) bitsLt_bf16_f32 := by
  show StableHlo.after hostOps0 (W0 m ρ c) (Proc.devRef .tc main_v2) = _
  after_results <;> rfl

/-- Entering the second region, its first operand holds the first region's output array after that region's last grid
    point, re-indexed row-major from 1024×24576 to 393216×64 and then to 32×12×1024×64: the two host operations between
    the regions are these two reshapes, and the first region leaves its fourth array at the fold of its write-backs. -/
theorem V3_v5 (c : Dev nD) : (V3 m ρ c main_v5 : S32x12x1024x64.Idx → Elt F .bf16)
    = shapeCast S32x12x1024x64 (shapeCast S393216x64 ((dat0 (V1 m ρ) c).arrAt 3 cfg0.N) shapeCasts_S1024x24576_S393216x64)
        shapeCasts_S393216x64_S32x12x1024x64 := by
  have h3 : W2 m ρ c (Proc.devRef .tc main_v3) = (dat0 (V1 m ρ) c).arrAt 3 cfg0.N := W2_arr m ρ c 3
  show StableHlo.after hostOps1 (W2 m ρ c) (Proc.devRef .tc main_v5) = _
  after_results
  rw [h3]
  rfl

/-- The third argument is as launched when the second region is entered: no host operation writes it and it is no
    array of the first region. -/
theorem V3_arg2 (c : Dev nD) : V3 m ρ c main_arg2 = m ((c.tc : Thread nD τ).loc main_arg2) := by
  show W3 m ρ c (Proc.devRef .tc main_arg2) = _
  exact calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The first argument is as launched when the second region is entered: no host operation writes it and it is no
    array of the first region. -/
theorem V3_arg0 (c : Dev nD) : V3 m ρ c main_arg0 = m ((c.tc : Thread nD τ).loc main_arg0) := by
  show W3 m ρ c (Proc.devRef .tc main_arg0) = _
  exact calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

end Cert.KernelIdeal.HostSide

end
-- ==== Proof.Forms.lean ====
/-
  The two whole-array functions the kernel's two regions compute, stated once over literal shapes.

  Region 0 (one column tile of 512 per grid point): the Chebyshev filter a[1024,3072] is contracted FIRST against the
  view xr[3072,8192] of the input, and the 64-wide group j = q / 192 of that product is then contracted against the
  flattened weights w[64,192]:
      M(r, q) = Σ_c (Σ_k a(r,k) · xr(k, (q/192)·64 + c)) · w(c, q % 192).
  Region 1 (one batch entry per grid point): the bias is added along the last axis of y[32,12,1024,64], the two middle
  axes and the last are permuted to [32,64,12,1024], and the input is added back:
      O(b,c,t,n) = (y(b,t,n,c) + bias(c)) + x(b,c,t,n).
-/
import Idealize.ShloMosaic.PureOps.Ideal
import Idealize.ShloMosaic.Lib.ValueIdx

noncomputable section

namespace Cert.Forms

open Idealize.ShloMosaic Idealize.ShloMosaic.ValueIdx

/-- The column of the view xr that output column `q` and channel `c` read: group `q / 192`, channel `c`. -/
def xcol (q : Fin 24576) (c : Fin 64) : Fin 8192 := ⟨q.val / 192 * 64 + c.val, by have := q.isLt; have := c.isLt; omega⟩

/-- The column of the flattened weights that output column `q` reads. -/
def wcol (q : Fin 24576) : Fin 192 := ⟨q.val % 192, Nat.mod_lt _ (by decide)⟩

/-- Inside one column tile (1536 output columns, 512 columns of the view): the view's column that output column `p` and
    channel `c` read. -/
def tileXcol (p : Fin 1536) (c : Fin 64) : Fin 512 := ⟨p.val / 192 * 64 + c.val, by have := p.isLt; have := c.isLt; omega⟩

/-- Inside one column tile: the weights' column that output column `p` reads. -/
def tileWcol (p : Fin 1536) : Fin 192 := ⟨p.val % 192, Nat.mod_lt _ (by decide)⟩

/-- The filter contracted first, the weights second. -/
def filterThenWeights (a : (⟨2, ![1024, 3072]⟩ : Shape).Idx → EReal) (w : (⟨2, ![64, 192]⟩ : Shape).Idx → EReal)
    (xr : (⟨2, ![3072, 8192]⟩ : Shape).Idx → EReal) : (⟨2, ![1024, 24576]⟩ : Shape).Idx → EReal :=
  fun i => ∑ c : Fin 64, (∑ k : Fin 3072, a (ix2 (i 0) k) * xr (ix2 k (xcol (i 1) c))) * w (ix2 c (wcol (i 1)))

/-- The weights contracted first, the filter second: the reference's order. -/
def weightsThenFilter (a : (⟨2, ![1024, 3072]⟩ : Shape).Idx → EReal) (w : (⟨2, ![64, 192]⟩ : Shape).Idx → EReal)
    (xr : (⟨2, ![3072, 8192]⟩ : Shape).Idx → EReal) : (⟨2, ![1024, 24576]⟩ : Shape).Idx → EReal :=
  fun i => ∑ k : Fin 3072, a (ix2 (i 0) k) * ∑ c : Fin 64, xr (ix2 k (xcol (i 1) c)) * w (ix2 c (wcol (i 1)))

/-- Bias along the last axis, the axes permuted, the input added back. -/
def biasPermuteResidual (y : (⟨4, ![32, 12, 1024, 64]⟩ : Shape).Idx → EReal) (b : (⟨1, ![64]⟩ : Shape).Idx → EReal)
    (x : (⟨4, ![32, 64, 12, 1024]⟩ : Shape).Idx → EReal) : (⟨4, ![32, 64, 12, 1024]⟩ : Shape).Idx → EReal :=
  fun i => (y (ix4 (i 0) (i 2) (i 3) (i 1)) + b (ix1 (i 1))) + x i

end Cert.Forms

end
-- ==== Proof.Pay0.lean ====
import proofs.«158763_j17841294148276_2_alg».proof.Proof.Gen.KernelIdeal.Skeleton
import proofs.«158763_j17841294148276_2_alg».proof.Proof.Forms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Pay0

open Cert.KernelIdeal Cert.KernelIdeal.Gen Cert.Forms Idealize.ShloMosaic Idealize.ShloMosaic.TcCoe Idealize.ShloMosaic.ValueIdx Idealize.SL.Sem

/-!
  Region 0's stored value read at an index, at the ideal values.

  For a column tile `x2` [3072,512] of the input view, the filter `x0` [1024,3072] and the flattened weights `x1` [64,192], the
  stored value is built in four steps (every format change is the identity on extended reals, every cast to the same
  shape is the identity):
    A = x0 · x2                      [1024,512]    A(r, s) = Σ_k x0(r,k) · x2(k,s);
    A' = A regrouped                 [8192,64]     A'(u, c) = A at row-major position u·64 + c;
    B = A' · x1                      [8192,192]    B(u, w) = Σ_c A'(u,c) · x1(c,w);
    result = B regrouped             [1024,1536]   result(r, p) = B at row-major position r·1536 + p.
  Position r·1536 + p of B is row r·8 + p/192, column p % 192; position (r·8 + p/192)·64 + c of A is row r, column
  (p/192)·64 + c. Hence
    result(r, p) = Σ_c (Σ_k x0(r,k) · x2(k, (p/192)·64 + c)) · x1(c, p % 192).
-/

/-- The left operand of the first contraction is read at the output's row … -/
theorem lhsA_0 (i : S1024x512.Idx) (q : dot_S1024x3072_S3072x512_S1024x512_1_0_0_1_n_n.contr.Idx) : (dot_S1024x3072_S3072x512_S1024x512_1_0_0_1_n_n.lhsIdx i q 0).val = (i 0).val := by
  unfold DotDims.lhsIdx
  rw [dif_neg (show ¬(0 : Fin S1024x3072.rank) ∈ dot_S1024x3072_S3072x512_S1024x512_1_0_0_1_n_n.lhsBatch by decide),
    dif_pos (show (0 : Fin S1024x3072.rank) ∈ dot_S1024x3072_S3072x512_S1024x512_1_0_0_1_n_n.lhsNonContracting by decide)]
  rfl
/-- … and at the contracted position; -/
theorem lhsA_1 (i : S1024x512.Idx) (q : dot_S1024x3072_S3072x512_S1024x512_1_0_0_1_n_n.contr.Idx) : (dot_S1024x3072_S3072x512_S1024x512_1_0_0_1_n_n.lhsIdx i q 1).val = (q ⟨0, by decide⟩).val :=
  dot_S1024x3072_S3072x512_S1024x512_1_0_0_1_n_n.lhsIdx_val_of_single rfl i q
/-- the right operand at the contracted position … -/
theorem rhsA_0 (i : S1024x512.Idx) (q : dot_S1024x3072_S3072x512_S1024x512_1_0_0_1_n_n.contr.Idx) : (dot_S1024x3072_S3072x512_S1024x512_1_0_0_1_n_n.rhsIdx i q 0).val = (q ⟨0, by decide⟩).val :=
  dot_S1024x3072_S3072x512_S1024x512_1_0_0_1_n_n.rhsIdx_val_of_single rfl i q
/-- … and at the output's column. -/
theorem rhsA_1 (i : S1024x512.Idx) (q : dot_S1024x3072_S3072x512_S1024x512_1_0_0_1_n_n.contr.Idx) : (dot_S1024x3072_S3072x512_S1024x512_1_0_0_1_n_n.rhsIdx i q 1).val = (i 1).val := by
  unfold DotDims.rhsIdx
  rw [dif_neg (show ¬(1 : Fin S3072x512.rank) ∈ dot_S1024x3072_S3072x512_S1024x512_1_0_0_1_n_n.rhsBatch by decide),
    dif_pos (show (1 : Fin S3072x512.rank) ∈ dot_S1024x3072_S3072x512_S1024x512_1_0_0_1_n_n.rhsNonContracting by decide)]
  rfl

/-- The first contraction (the filter against one column tile of the view), into a zero accumulator, read at row `p` and
    column `q`: the sum over the 3072 contracted positions. -/
theorem matmulA_apply (a : FVec Ideal S1024x3072 .bf16) (b : FVec Ideal S3072x512 .bf16) (p : Fin 1024) (q : Fin 512) :
    matmul dot_S1024x3072_S3072x512_S1024x512_1_0_0_1_n_n none a b (constant (F := Ideal) S1024x512 .f32 0x00000000#32) (ix2 p q)
      = ∑ k : Fin 3072, a (ix2 p k) * b (ix2 k q) := by
  simp only [matmul]
  rw [Ideal.matmul_constant_zero_apply, ← Equiv.sum_comp (ValueIdx.contrEquiv1 dot_S1024x3072_S3072x512_S1024x512_1_0_0_1_n_n 3072 rfl rfl).symm]
  refine Finset.sum_congr rfl fun k _ => ?_
  have hk := ValueIdx.contrEquiv1_symm_val dot_S1024x3072_S3072x512_S1024x512_1_0_0_1_n_n 3072 rfl rfl k
  have el : dot_S1024x3072_S3072x512_S1024x512_1_0_0_1_n_n.lhsIdx (ix2 p q) ((ValueIdx.contrEquiv1 dot_S1024x3072_S3072x512_S1024x512_1_0_0_1_n_n 3072 rfl rfl).symm k) = ix2 p k :=
    funext fun x => Fin.ext (by
      match x with
      | ⟨0, _⟩ => exact lhsA_0 _ _
      | ⟨1, _⟩ => exact (lhsA_1 _ _).trans hk)
  have er : dot_S1024x3072_S3072x512_S1024x512_1_0_0_1_n_n.rhsIdx (ix2 p q) ((ValueIdx.contrEquiv1 dot_S1024x3072_S3072x512_S1024x512_1_0_0_1_n_n 3072 rfl rfl).symm k) = ix2 k q :=
    funext fun x => Fin.ext (by
      match x with
      | ⟨0, _⟩ => exact (rhsA_0 _ _).trans hk
      | ⟨1, _⟩ => exact rhsA_1 _ _)
  rw [el, er]

/-- The left operand of the second contraction is read at the output's row … -/
theorem lhsB_0 (i : S8192x192.Idx) (q : dot_S8192x64_S64x192_S8192x192_1_0_0_1_n_n.contr.Idx) : (dot_S8192x64_S64x192_S8192x192_1_0_0_1_n_n.lhsIdx i q 0).val = (i 0).val := by
  unfold DotDims.lhsIdx
  rw [dif_neg (show ¬(0 : Fin S8192x64.rank) ∈ dot_S8192x64_S64x192_S8192x192_1_0_0_1_n_n.lhsBatch by decide),
    dif_pos (show (0 : Fin S8192x64.rank) ∈ dot_S8192x64_S64x192_S8192x192_1_0_0_1_n_n.lhsNonContracting by decide)]
  rfl
/-- … and at the contracted position; -/
theorem lhsB_1 (i : S8192x192.Idx) (q : dot_S8192x64_S64x192_S8192x192_1_0_0_1_n_n.contr.Idx) : (dot_S8192x64_S64x192_S8192x192_1_0_0_1_n_n.lhsIdx i q 1).val = (q ⟨0, by decide⟩).val :=
  dot_S8192x64_S64x192_S8192x192_1_0_0_1_n_n.lhsIdx_val_of_single rfl i q
/-- the right operand at the contracted position … -/
theorem rhsB_0 (i : S8192x192.Idx) (q : dot_S8192x64_S64x192_S8192x192_1_0_0_1_n_n.contr.Idx) : (dot_S8192x64_S64x192_S8192x192_1_0_0_1_n_n.rhsIdx i q 0).val = (q ⟨0, by decide⟩).val :=
  dot_S8192x64_S64x192_S8192x192_1_0_0_1_n_n.rhsIdx_val_of_single rfl i q
/-- … and at the output's column. -/
theorem rhsB_1 (i : S8192x192.Idx) (q : dot_S8192x64_S64x192_S8192x192_1_0_0_1_n_n.contr.Idx) : (dot_S8192x64_S64x192_S8192x192_1_0_0_1_n_n.rhsIdx i q 1).val = (i 1).val := by
  unfold DotDims.rhsIdx
  rw [dif_neg (show ¬(1 : Fin S64x192.rank) ∈ dot_S8192x64_S64x192_S8192x192_1_0_0_1_n_n.rhsBatch by decide),
    dif_pos (show (1 : Fin S64x192.rank) ∈ dot_S8192x64_S64x192_S8192x192_1_0_0_1_n_n.rhsNonContracting by decide)]
  rfl

/-- The second contraction (the regrouped product against the flattened weights), into a zero accumulator, read at row `p`
    and column `q`: the sum over the 64 channels. -/
theorem matmulB_apply (a : FVec Ideal S8192x64 .bf16) (b : FVec Ideal S64x192 .bf16) (p : Fin 8192) (q : Fin 192) :
    matmul dot_S8192x64_S64x192_S8192x192_1_0_0_1_n_n none a b (constant (F := Ideal) S8192x192 .f32 0x00000000#32) (ix2 p q)
      = ∑ k : Fin 64, a (ix2 p k) * b (ix2 k q) := by
  simp only [matmul]
  rw [Ideal.matmul_constant_zero_apply, ← Equiv.sum_comp (ValueIdx.contrEquiv1 dot_S8192x64_S64x192_S8192x192_1_0_0_1_n_n 64 rfl rfl).symm]
  refine Finset.sum_congr rfl fun k _ => ?_
  have hk := ValueIdx.contrEquiv1_symm_val dot_S8192x64_S64x192_S8192x192_1_0_0_1_n_n 64 rfl rfl k
  have el : dot_S8192x64_S64x192_S8192x192_1_0_0_1_n_n.lhsIdx (ix2 p q) ((ValueIdx.contrEquiv1 dot_S8192x64_S64x192_S8192x192_1_0_0_1_n_n 64 rfl rfl).symm k) = ix2 p k :=
    funext fun x => Fin.ext (by
      match x with
      | ⟨0, _⟩ => exact lhsB_0 _ _
      | ⟨1, _⟩ => exact (lhsB_1 _ _).trans hk)
  have er : dot_S8192x64_S64x192_S8192x192_1_0_0_1_n_n.rhsIdx (ix2 p q) ((ValueIdx.contrEquiv1 dot_S8192x64_S64x192_S8192x192_1_0_0_1_n_n 64 rfl rfl).symm k) = ix2 k q :=
    funext fun x => Fin.ext (by
      match x with
      | ⟨0, _⟩ => exact (rhsB_0 _ _).trans hk
      | ⟨1, _⟩ => exact rhsB_1 _ _)
  rw [el, er]

/-- The regrouping [1024,512] → [8192,64] read at row `u` and channel `c`: row-major position `u·64 + c` of the
    operand, i.e. row `u / 8`, column `(u % 8)·64 + c`. -/
theorem castA_apply {α : Type} (y : S1024x512.Idx → α) (u : Fin 8192) (c : Fin 64) (r : Fin 1024) (s : Fin 512)
    (h : r.val * 512 + s.val = u.val * 64 + c.val) :
    shapeCast S8192x64 y shapeCasts_S1024x512_S8192x64 (ix2 u c) = y (ix2 r s) :=
  shapeCast_apply y shapeCasts_S1024x512_S8192x64 (ix2 u c) (ix2 r s)
    (by rewrite [Shape.rowMajor_val_two, Shape.rowMajor_val_two]; exact h)

/-- The regrouping [8192,192] → [1024,1536] read at row `r` and column `p`: row-major position `r·1536 + p` of the
    operand, i.e. row `r·8 + p / 192`, column `p % 192`. -/
theorem castB_apply {α : Type} (y : S8192x192.Idx → α) (r : Fin 1024) (p : Fin 1536) (u : Fin 8192) (w : Fin 192)
    (h : u.val * 192 + w.val = r.val * 1536 + p.val) :
    shapeCast S1024x1536 y shapeCasts_S8192x192_S1024x1536 (ix2 r p) = y (ix2 u w) :=
  shapeCast_apply y shapeCasts_S8192x192_S1024x1536 (ix2 r p) (ix2 u w)
    (by rewrite [Shape.rowMajor_val_two, Shape.rowMajor_val_two]; exact h)

/-- The row of the regrouped product that output row `r`, column `p` reads: `r·8 + p / 192`. -/
def groupRow (r : Fin 1024) (p : Fin 1536) : Fin 8192 := ⟨r.val * 8 + p.val / 192, by have := r.isLt; have := p.isLt; omega⟩

/-- Region 0's stored value at row `r`, column `p` of the tile: the filter contracted first, the weights second. -/
theorem pay0_apply (x2 : Vec Ideal S3072x512 .f32) (x0 : Vec Ideal S1024x3072 .bf16) (x1 : Vec Ideal S64x192 .f32)
    (r : Fin 1024) (p : Fin 1536) :
    k0_pay1 (F := Ideal) x2 x0 x1 (ix2 r p)
      = ∑ c : Fin 64, (∑ k : Fin 3072, (x0 (ix2 r k) : EReal) * (x2 (ix2 k (tileXcol p c)) : EReal)) * (x1 (ix2 c (tileWcol p)) : EReal) := by
  unfold k0_pay1
  -- the casts to the same shape are the identity
  simp only [shapeCast_self]
  -- the last format change is the identity on extended reals
  refine (truncf_apply (φ := .f32) (ψ := .bf16) _ bitsLt_bf16_f32 (ix2 r p)).trans ?_
  -- the regrouping [8192,192] → [1024,1536] at (r, p)
  refine (castB_apply _ r p (groupRow r p) (tileWcol p) ?_).trans ?_
  · show (r.val * 8 + p.val / 192) * 192 + p.val % 192 = r.val * 1536 + p.val
    omega
  -- the second contraction at (r·8 + p/192, p % 192)
  refine (matmulB_apply _ _ (groupRow r p) (tileWcol p)).trans ?_
  refine Finset.sum_congr rfl fun c _ => ?_
  refine congrArg₂ (· * ·) ?_ rfl
  -- a format change again, then the regrouping [1024,512] → [8192,64] at (r·8 + p/192, c)
  refine (castA_apply _ (groupRow r p) c r (tileXcol p c) ?_).trans ?_
  · show r.val * 512 + (p.val / 192 * 64 + c.val) = (r.val * 8 + p.val / 192) * 64 + c.val
    omega
  refine (truncf_apply (φ := .f32) (ψ := .bf16) _ bitsLt_bf16_f32 (ix2 r (tileXcol p c))).trans ?_
  -- the first contraction at (r, (p/192)·64 + c)
  exact matmulA_apply _ _ r (tileXcol p c)

end Cert.KernelIdeal.Pay0

end
-- ==== Proof.Blocks0.lean ====
import proofs.«158763_j17841294148276_2_alg».proof.Proof.Gen.KernelIdeal.Frame
import proofs.«158763_j17841294148276_2_alg».proof.Proof.Pay0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Blocks0

open Cert.KernelIdeal Cert.KernelIdeal.Gen Cert.Forms Idealize.ShloMosaic Idealize.ShloMosaic.TcCoe Idealize.ShloMosaic.ValueIdx Idealize.SL.Sem

/-- Both offsets of a whole-block access are zero. -/
theorem zero_offsets : (![0, 0] : Fin 2 → Nat) = fun _ => 0 := funext fun a => by fin_cases a <;> rfl

/-- The block index of each window at grid point `t`, on each axis: the filter and the weights are whole at
    every point; the view's and the output's column tile is the point's number. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- One element of one column tile. At tile `n`, block column `p` is array column `q = n·1536 + p`; then
    `q / 192 = n·8 + p / 192` and `q % 192 = p % 192`, so the view's column `(q/192)·64 + c` is column
    `(p/192)·64 + c` of the tile's 512 columns `n·512 …`, and the weights' column is the same. -/
theorem tile_value (a : (⟨2, ![1024, 3072]⟩ : Shape).Idx → EReal) (w : (⟨2, ![64, 192]⟩ : Shape).Idx → EReal)
    (xr : (⟨2, ![3072, 8192]⟩ : Shape).Idx → EReal)
    (x0 : Vec Ideal S1024x3072 .bf16) (x1 : Vec Ideal S64x192 .f32) (x2 : Vec Ideal S3072x512 .f32)
    (n : Nat) (hn : n < 16)
    (h0 : ∀ (r : Fin 1024) (k : Fin 3072), (x0 (ix2 r k) : EReal) = a (ix2 r k))
    (h1 : ∀ (c : Fin 64) (j : Fin 192), (x1 (ix2 c j) : EReal) = w (ix2 c j))
    (h2 : ∀ (k : Fin 3072) (j : Fin 512) (j' : Fin 8192), j'.val = n * 512 + j.val → (x2 (ix2 k j) : EReal) = xr (ix2 k j'))
    (r : Fin 1024) (p : Fin 1536) (i : (⟨2, ![1024, 24576]⟩ : Shape).Idx)
    (hi0 : (i 0).val = r.val) (hi1 : (i 1).val = n * 1536 + p.val) :
    k0_pay1 (F := Ideal) x2 x0 x1 (ix2 r p) = filterThenWeights a w xr i := by
  rw [Pay0.pay0_apply]
  unfold filterThenWeights
  have hp : p.val < 1536 := p.isLt
  refine Finset.sum_congr rfl fun c _ => ?_
  have hc : c.val < 64 := c.isLt
  have e1 : (x1 (ix2 c (tileWcol p)) : EReal) = w (ix2 c (wcol (i 1))) := by
    rw [h1]
    refine congrArg w (congrArg (ix2 c) (Fin.ext ?_))
    show p.val % 192 = (i 1).val % 192
    rw [hi1]; omega
  rw [e1]
  refine congrArg (· * _) (Finset.sum_congr rfl fun k _ => ?_)
  have e0 : (x0 (ix2 r k) : EReal) = a (ix2 (i 0) k) := by
    rw [h0]
    refine congrArg a (congrArg (ix2 · k) (Fin.ext ?_))
    exact hi0.symm
  rw [e0, h2 k (tileXcol p c) (xcol (i 1) c) (by
    show (i 1).val / 192 * 64 + c.val = n * 512 + (p.val / 192 * 64 + c.val)
    rw [hi1]; omega)]

variable (V : (c : Dev nD) → (b : Ref sig .tc) → Buf (Elt Ideal) ((c : Thread nD τ).loc b))

/-- The filter's block at any point is the filter: its block index is (0, 0) and the block is the whole array. -/
theorem filter_block (c : Dev nD) (t : Fin cfg0.N) (r : Fin 1024) (k : Fin 3072) :
    (iblk0 V c 0 t : Vec Ideal S1024x3072 .bf16) (ix2 r k) = (V c main_v2 : S1024x3072.Idx → EReal) (ix2 r k) := by
  obtain ⟨e0, e1, -⟩ := block_indices t
  unfold iblk0
  rw [View.read_apply]
  show V c main_v2 (((cfg0.win 0).blk t).view.emb (ix2 r k)) = V c main_v2 (ix2 r k)
  refine congrArg (V c main_v2) (funext fun a => Fin.ext ?_)
  match a with
  | ⟨0, _⟩ => show win0_0.index t (0 : Fin 2) * 1024 + 1 * r.val = r.val; rw [e0]; omega
  | ⟨1, _⟩ => show win0_0.index t (1 : Fin 2) * 3072 + 1 * k.val = k.val; rw [e1]; omega

/-- The weights' block at any point is the weights. -/
theorem weights_block (c : Dev nD) (t : Fin cfg0.N) (ch : Fin 64) (j : Fin 192) :
    (iblk0 V c 1 t : Vec Ideal S64x192 .f32) (ix2 ch j) = (V c main_v0 : S64x192.Idx → EReal) (ix2 ch j) := by
  obtain ⟨-, -, e0, e1, -⟩ := block_indices t
  unfold iblk0
  rw [View.read_apply]
  show V c main_v0 (((cfg0.win 1).blk t).view.emb (ix2 ch j)) = V c main_v0 (ix2 ch j)
  refine congrArg (V c main_v0) (funext fun a => Fin.ext ?_)
  match a with
  | ⟨0, _⟩ => show win0_1.index t (0 : Fin 2) * 64 + 1 * ch.val = ch.val; rw [e0]; omega
  | ⟨1, _⟩ => show win0_1.index t (1 : Fin 2) * 192 + 1 * j.val = j.val; rw [e1]; omega

/-- The view's block at point `t` is its column tile `t`: block column `j` is array column `t·512 + j`. -/
theorem view_block (c : Dev nD) (t : Fin cfg0.N) (k : Fin 3072) (j : Fin 512) (j' : Fin 8192)
    (hj : j'.val = t.val * 512 + j.val) :
    (iblk0 V c 2 t : Vec Ideal S3072x512 .f32) (ix2 k j) = (V c main_v1 : S3072x8192.Idx → EReal) (ix2 k j') := by
  obtain ⟨-, -, -, -, e0, e1, -⟩ := block_indices t
  unfold iblk0
  rw [View.read_apply]
  show V c main_v1 (((cfg0.win 2).blk t).view.emb (ix2 k j)) = V c main_v1 (ix2 k j')
  refine congrArg (V c main_v1) (funext fun a => Fin.ext ?_)
  match a with
  | ⟨0, _⟩ => show win0_2.index t (0 : Fin 2) * 3072 + 1 * k.val = k.val; rw [e0]; omega
  | ⟨1, _⟩ => show win0_2.index t (1 : Fin 2) * 512 + 1 * j.val = j'.val; rw [e1, hj]; omega

/-- What grid point `t` writes back is block `t` of the whole-array function. -/
theorem flushed_eq (c : Dev nD) (t : Fin cfg0.N) :
    (dat0 V c).flushed 3 t
      = ((cfg0.win 3).blk t).view.read (Elt Ideal) (filterThenWeights (V c main_v2) (V c main_v0) (V c main_v1)) := by
  show (cfg0.win 3).cut (grid0.coords t) ((dat0 V c).after 3 t) = _
  rw [after0_3]
  unfold out0_3
  rw [View.canon_unit_zero zero_offsets]
  simp only [View.ld_unit_zero (S := S3072x512) zero_offsets, View.ld_unit_zero (S := S1024x3072) zero_offsets,
    View.ld_unit_zero (S := S64x192) zero_offsets]
  funext y
  obtain ⟨r, p, rfl⟩ : ∃ (r : Fin 1024) (p : Fin 1536), y = ix2 r p := ⟨y 0, y 1, eq_ix2 (n0 := 1024) (n1 := 1536) y⟩
  have ht : t.val < 16 := t.isLt
  obtain ⟨-, -, -, -, -, -, e0, e1⟩ := block_indices t
  refine (tile_value (V c main_v2) (V c main_v0) (V c main_v1) (iblk0 V c 0 t) (iblk0 V c 1 t) (iblk0 V c 2 t)
    t.val ht (filter_block V c t) (weights_block V c t) (view_block V c t) r p
    (((cfg0.win 3).blk t).view.emb (ix2 r p)) ?_ ?_).trans ?_
  · show win0_3.index t (0 : Fin 2) * 1024 + 1 * r.val = r.val; rw [e0]; omega
  · show win0_3.index t (1 : Fin 2) * 1536 + 1 * p.val = t.val * 1536 + p.val; rw [e1]; omega
  · rw [View.read_apply]; rfl

/-- An index of the array is in point `t`'s block iff each coordinate is in the block's range on its axis. -/
theorem mem_block (t : Fin cfg0.N) (i : S1024x24576.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v3).slice (win0_3.rect t)).set ↔ _
  rw [View.set_slice_whole, Rect.mem_set_unit]
  exact Iff.rfl

/-- Every index of the array is in some point's block, and every point writes back: column `q` lies in column
    tile `q / 1536`, and every row lies in the one row block. -/
theorem cover (i : S1024x24576.Idx) :
    ∃ t : Fin cfg0.N, (cfg0.win 3).flush t = true ∧ i ∈ ((cfg0.win 3).blk t).view.set := by
  have hi0 : (i 0).val < 1024 := (i 0).isLt
  have hi1 : (i 1).val < 24576 := (i 1).isLt
  have hlt : (i 1).val / 1536 < cfg0.N := by show (i 1).val / 1536 < 16; omega
  obtain ⟨-, -, -, -, -, -, e0, e1⟩ := block_indices ⟨(i 1).val / 1536, hlt⟩
  have e1' : win0_3.index ⟨(i 1).val / 1536, hlt⟩ (1 : Fin 2) = (i 1).val / 1536 := e1
  refine ⟨⟨(i 1).val / 1536, hlt⟩, flush0_3 _, ?_⟩
  rw [mem_block]
  intro a
  match a with
  | ⟨0, _⟩ =>
    show win0_3.index ⟨(i 1).val / 1536, hlt⟩ (0 : Fin 2) * 1024 ≤ (i 0).val
      ∧ (i 0).val < win0_3.index ⟨(i 1).val / 1536, hlt⟩ (0 : Fin 2) * 1024 + 1024
    rw [e0]; omega
  | ⟨1, _⟩ =>
    show win0_3.index ⟨(i 1).val / 1536, hlt⟩ (1 : Fin 2) * 1536 ≤ (i 1).val
      ∧ (i 1).val < win0_3.index ⟨(i 1).val / 1536, hlt⟩ (1 : Fin 2) * 1536 + 1536
    rw [e1']; omega

/-- The array after the run: the filter contracted against the view first, the weights second, at every index. -/
theorem final0 (c : Dev nD) :
    (dat0 V c).arrAt 3 cfg0.N = filterThenWeights (V c main_v2) (V c main_v0) (V c main_v1) :=
  (dat0 V c).arrAt_eq_of_cover 3 (filterThenWeights (V c main_v2) (V c main_v0) (V c main_v1))
    (fun t _ => flushed_eq V c t) cover

end Cert.KernelIdeal.Blocks0

end
-- ==== Proof.Pay1.lean ====
import proofs.«158763_j17841294148276_2_alg».proof.Proof.Gen.KernelIdeal.Skeleton
import proofs.«158763_j17841294148276_2_alg».proof.Proof.Forms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Pay1

open Cert.KernelIdeal Cert.KernelIdeal.Gen Cert.Forms Idealize.ShloMosaic Idealize.ShloMosaic.TcCoe Idealize.ShloMosaic.ValueIdx Idealize.SL.Sem

/-- A [64, 12288] array viewed as [1, 64, 12, 1024]: the entry (0, c, t, n) is the entry (c, t·1024 + n), the two
    having the same row-major position. -/
theorem cast_64x12288_apply {α : Type} (x : S64x12288.Idx → α) (h : S64x12288.ShapeCasts S1x64x12x1024)
    (c : Fin 64) (t : Fin 12) (n : Fin 1024) (q : Fin 12288) (hq : q.val = t.val * 1024 + n.val) :
    shapeCast S1x64x12x1024 x h (ix4 (0 : Fin 1) c t n) = x (ix2 c q) :=
  shapeCast_apply x h _ _ (by
    rw [Shape.rowMajor_val_two, Shape.rowMajor_val_four]
    show c.val * 12288 + q.val = ((0 * 64 + c.val) * 12 + t.val) * 1024 + n.val
    have ht := t.isLt
    have hn := n.isLt
    omega)

/-- A [1, 12, 1024, 64] array viewed as [12288, 64]: the entry (t·1024 + n, c) is the entry (0, t, n, c). -/
theorem cast_1x12x1024x64_apply {α : Type} (x : S1x12x1024x64.Idx → α) (h : S1x12x1024x64.ShapeCasts S12288x64)
    (c : Fin 64) (t : Fin 12) (n : Fin 1024) (q : Fin 12288) (hq : q.val = t.val * 1024 + n.val) :
    shapeCast S12288x64 x h (ix2 q c) = x (ix4 (0 : Fin 1) t n c) :=
  shapeCast_apply x h _ _ (by
    rw [Shape.rowMajor_val_four, Shape.rowMajor_val_two]
    show ((0 * 12 + t.val) * 1024 + n.val) * 64 + c.val = q.val * 64 + c.val
    omega)

theorem pay1_apply (v0 : Vec Ideal S1x12x1024x64 .bf16) (v4 : Vec Ideal S64 .f32) (v10 : Vec Ideal S1x64x12x1024 .f32)
    (c : Fin 64) (t : Fin 12) (n : Fin 1024) :
    k1_pay1 (F := Ideal) v0 v4 v10 (ix4 (0 : Fin 1) c t n)
      = ((v0 (ix4 (0 : Fin 1) t n c) : EReal) + (v4 (ix1 c) : EReal)) + (v10 (ix4 (0 : Fin 1) c t n) : EReal) := by
  -- the row t·1024 + n of the flattened [12288, 64] array
  have hq : t.val * 1024 + n.val < 12288 := by
    have ht := t.isLt
    have hn := n.isLt
    omega
  unfold k1_pay1
  -- the residual addition, read at the index
  refine (addf_apply _ v10 (ix4 (0 : Fin 1) c t n)).trans ?_
  refine congrArg (· + (v10 (ix4 (0 : Fin 1) c t n) : EReal)) ?_
  -- [64, 12288] viewed as [1, 64, 12, 1024], then the transpose
  refine (cast_64x12288_apply _ shapeCasts_S64x12288_S1x64x12x1024 c t n ⟨t.val * 1024 + n.val, hq⟩ rfl).trans ?_
  refine (transpose_ix2_apply _ transposes_S12288x64_p1_0_S64x12288 c ⟨t.val * 1024 + n.val, hq⟩).trans ?_
  -- the bias addition, read at the index
  refine (addf_apply _ _ (ix2 (⟨t.val * 1024 + n.val, hq⟩ : Fin 12288) c)).trans ?_
  refine congrArg₂ (· + ·) ?_ ?_
  · -- [1, 12, 1024, 64] viewed as [12288, 64]; widening the format is the identity on ideal values
    refine (cast_1x12x1024x64_apply _ shapeCasts_S1x12x1024x64_S12288x64 c t n ⟨t.val * 1024 + n.val, hq⟩ rfl).trans ?_
    refine (extf_apply _ bitsLt_bf16_f32 (ix4 (0 : Fin 1) t n c)).trans ?_
    rw [shapeCast_self]
  · -- one row of 64 bias entries broadcast over the 12288 rows
    refine (broadcastTo_1b_ab_apply _ broadcasts_S1x64_S12288x64 ⟨t.val * 1024 + n.val, hq⟩ c).trans ?_
    exact shapeCast_a_1a_apply v4 shapeCasts_S64_S1x64 (0 : Fin 1) c

end Cert.KernelIdeal.Pay1

end
-- ==== Proof.Blocks1.lean ====
/-
  Region 1, from blocks to the array. The grid has one point per batch entry g. At point g the body loads batch entry g of
  the activations y[32,12,1024,64], the whole bias[64] and batch entry g of the input x[32,64,12,1024], and stores the
  whole block O(g,c,t,n) = (y(g,t,n,c) + bias(c)) + x(g,c,t,n), which is written back to batch entry g of the output.
  The blocks are restrictions of one whole-array function and cover the output array, so the array ends holding it.
-/
import proofs.«158763_j17841294148276_2_alg».proof.Proof.Gen.KernelIdeal.Frame
import proofs.«158763_j17841294148276_2_alg».proof.Proof.Pay1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Blocks1

open Cert.KernelIdeal Cert.KernelIdeal.Gen Cert.Forms Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a rank-4 whole-block access, as the constant function. -/
theorem zeros4 : (![0, 0, 0, 0] : Fin 4 → Nat) = fun _ => 0 := funext fun a => by fin_cases a <;> rfl
/-- The zero offset of the bias's whole-array access, as the constant function. -/
theorem zeros1 : (![0] : Fin 1 → Nat) = fun _ => 0 := funext fun a => by fin_cases a <;> rfl

/-- The grid has 32 points, one per batch entry. -/
theorem grid_card : cfg1.N = 32 := by decide

/-- The index maps over the grid: at point g the activations, the input and the output are at block g of the batch
    axis and block 0 of every other axis, and the bias at its one block. -/
theorem index_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 1) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- One element of the block the body stores, when the three loaded blocks are batch entry g of the activations Y, the
    whole bias B, and batch entry g of the input X: it is the bias-permute-residual function of Y, B, X at batch g. -/
theorem block_elem (v0 : Vec Ideal S1x12x1024x64 .bf16) (v4 : Vec Ideal S64 .f32) (v10 : Vec Ideal S1x64x12x1024 .f32)
    (Y : (⟨4, ![32, 12, 1024, 64]⟩ : Shape).Idx → EReal) (B : (⟨1, ![64]⟩ : Shape).Idx → EReal)
    (X : (⟨4, ![32, 64, 12, 1024]⟩ : Shape).Idx → EReal) (g : Fin 32)
    (h0 : ∀ (k : Fin 12) (n : Fin 1024) (ch : Fin 64), (v0 (ix4 (0 : Fin 1) k n ch) : EReal) = Y (ix4 g k n ch))
    (h1 : ∀ ch : Fin 64, (v4 (ix1 ch) : EReal) = B (ix1 ch))
    (h2 : ∀ (ch : Fin 64) (k : Fin 12) (n : Fin 1024), (v10 (ix4 (0 : Fin 1) ch k n) : EReal) = X (ix4 g ch k n))
    (ch : Fin 64) (k : Fin 12) (n : Fin 1024) :
    k1_pay1 (F := Ideal) v0 v4 v10 (ix4 (0 : Fin 1) ch k n) = biasPermuteResidual Y B X (ix4 g ch k n) := by
  rw [Pay1.pay1_apply, h0, h1, h2]
  rfl

/-- What point g writes back is block g of the bias-permute-residual function of the arrays as the region finds them. -/
theorem flushed_eq (c : Dev nD) (t : Fin cfg1.N) :
    (dat1 V c).flushed 3 t = ((cfg1.win 3).blk t).view.read (Elt Ideal) (biasPermuteResidual (V c main_v5) (V c main_arg2) (V c main_arg0)) := by
  show (cfg1.win 3).cut (grid1.coords t) ((dat1 V c).after 3 t) = _
  rw [after1_3]
  unfold out1_3
  rw [View.canon_unit_zero zeros4]
  simp only [View.ld_unit_zero (S := S1x12x1024x64) zeros4, View.ld_unit_zero (S := S64) zeros1, View.ld_unit_zero (S := S1x64x12x1024) zeros4]
  obtain ⟨e00, e01, e02, e03, e10, e20, e21, e22, e23, e30, e31, e32, e33⟩ := index_facts t
  have ht : t.val < 32 := lt_of_lt_of_eq t.isLt grid_card
  funext y
  obtain ⟨y0, ch, k, n, rfl⟩ : ∃ (y0 : Fin 1) (ch : Fin 64) (k : Fin 12) (n : Fin 1024), y = ix4 y0 ch k n :=
    ⟨y 0, y 1, y 2, y 3, eq_ix4 (n0 := 1) (n1 := 64) (n2 := 12) (n3 := 1024) y⟩
  obtain rfl : y0 = 0 := Subsingleton.elim _ _
  refine (block_elem (iblk1 V c 0 t) (iblk1 V c 1 t) (iblk1 V c 2 t) (V c main_v5) (V c main_arg2) (V c main_arg0) ⟨t.val, ht⟩ ?_ ?_ ?_ ch k n).trans ?_
  · intro k n ch
    unfold iblk1
    rw [View.read_apply]
    show V c main_v5 (((cfg1.win 0).blk t).view.emb (ix4 (0 : Fin 1) k n ch)) = V c main_v5 (ix4 ⟨t.val, ht⟩ k n ch)
    refine congrArg _ ?_
    funext a; apply Fin.ext
    match a with
    | ⟨0, _⟩ => show win1_0.index t (0 : Fin 4) * 1 + 1 * 0 = t.val; omega
    | ⟨1, _⟩ => show win1_0.index t (1 : Fin 4) * 12 + 1 * k.val = k.val; omega
    | ⟨2, _⟩ => show win1_0.index t (2 : Fin 4) * 1024 + 1 * n.val = n.val; omega
    | ⟨3, _⟩ => show win1_0.index t (3 : Fin 4) * 64 + 1 * ch.val = ch.val; omega
  · intro ch
    unfold iblk1
    rw [View.read_apply]
    show V c main_arg2 (((cfg1.win 1).blk t).view.emb (ix1 ch)) = V c main_arg2 (ix1 ch)
    refine congrArg _ ?_
    funext a; apply Fin.ext
    match a with
    | ⟨0, _⟩ => show win1_1.index t (0 : Fin 1) * 64 + 1 * ch.val = ch.val; omega
  · intro ch k n
    unfold iblk1
    rw [View.read_apply]
    show V c main_arg0 (((cfg1.win 2).blk t).view.emb (ix4 (0 : Fin 1) ch k n)) = V c main_arg0 (ix4 ⟨t.val, ht⟩ ch k n)
    refine congrArg _ ?_
    funext a; apply Fin.ext
    match a with
    | ⟨0, _⟩ => show win1_2.index t (0 : Fin 4) * 1 + 1 * 0 = t.val; omega
    | ⟨1, _⟩ => show win1_2.index t (1 : Fin 4) * 64 + 1 * ch.val = ch.val; omega
    | ⟨2, _⟩ => show win1_2.index t (2 : Fin 4) * 12 + 1 * k.val = k.val; omega
    | ⟨3, _⟩ => show win1_2.index t (3 : Fin 4) * 1024 + 1 * n.val = n.val; omega
  · rw [View.read_apply]
    show biasPermuteResidual (V c main_v5) (V c main_arg2) (V c main_arg0) (ix4 ⟨t.val, ht⟩ ch k n)
      = biasPermuteResidual (V c main_v5) (V c main_arg2) (V c main_arg0) (((cfg1.win 3).blk t).view.emb (ix4 (0 : Fin 1) ch k n))
    refine congrArg _ ?_
    funext a; apply Fin.ext
    match a with
    | ⟨0, _⟩ => show t.val = win1_3.index t (0 : Fin 4) * 1 + 1 * 0; omega
    | ⟨1, _⟩ => show ch.val = win1_3.index t (1 : Fin 4) * 64 + 1 * ch.val; omega
    | ⟨2, _⟩ => show k.val = win1_3.index t (2 : Fin 4) * 12 + 1 * k.val; omega
    | ⟨3, _⟩ => show n.val = win1_3.index t (3 : Fin 4) * 1024 + 1 * n.val; omega

/-- An index of the output array is in point g's block iff each coordinate is in the block's range on its axis. -/
theorem mem_blk (t : Fin cfg1.N) (i : S32x64x12x1024.Idx) :
    i ∈ ((cfg1.win 3).blk t).view.set ↔ ∀ a : Fin 4, win1_3.index t a * S1x64x12x1024.size a ≤ (i a).val ∧ (i a).val < win1_3.index t a * S1x64x12x1024.size a + S1x64x12x1024.size a := by
  show i ∈ ((View.whole main_v6).slice (win1_3.rect t)).set ↔ _
  rw [View.set_slice_whole, Rect.mem_set_unit]
  exact Iff.rfl

/-- Every index of the output array is in the block of the point its batch coordinate names, and every point writes back. -/
theorem cover (i : S32x64x12x1024.Idx) :
    ∃ t : Fin cfg1.N, (cfg1.win 3).flush t = true ∧ i ∈ ((cfg1.win 3).blk t).view.set := by
  have h0 : (i 0).val < 32 := (i 0).isLt
  have h1 : (i 1).val < 64 := (i 1).isLt
  have h2 : (i 2).val < 12 := (i 2).isLt
  have h3 : (i 3).val < 1024 := (i 3).isLt
  obtain ⟨t, ht⟩ : ∃ t : Fin cfg1.N, t.val = (i 0).val := ⟨⟨(i 0).val, lt_of_lt_of_eq h0 grid_card.symm⟩, rfl⟩
  obtain ⟨-, -, -, -, -, -, -, -, -, e30, e31, e32, e33⟩ := index_facts t
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 64 ≤ (i 1).val ∧ (i 1).val < win1_3.index t (1 : Fin 4) * 64 + 64; omega
  | ⟨2, _⟩ => show win1_3.index t (2 : Fin 4) * 12 ≤ (i 2).val ∧ (i 2).val < win1_3.index t (2 : Fin 4) * 12 + 12; omega
  | ⟨3, _⟩ => show win1_3.index t (3 : Fin 4) * 1024 ≤ (i 3).val ∧ (i 3).val < win1_3.index t (3 : Fin 4) * 1024 + 1024; omega

/-- The output array after the run: every point writes its block of the one function, and the blocks cover the array. -/
theorem final1 (c : Dev nD) :
    (dat1 V c).arrAt 3 cfg1.N = biasPermuteResidual (V c main_v5) (V c main_arg2) (V c main_arg0) :=
  (dat1 V c).arrAt_eq_of_cover 3 (biasPermuteResidual (V c main_v5) (V c main_arg2) (V c main_arg0))
    (fun t _ => flushed_eq V c t) cover

end Cert.KernelIdeal.Blocks1

end
-- ==== Proof.LibContractionOrder.lean ====
/-
  A general law on the extended reals: a double contraction in either order.

  For a vector a : K, a matrix x : K × C and a vector w : C whose entries are all REAL,
      Σ_c (Σ_k a k · x k c) · w c = Σ_k a k · Σ_c x k c · w c
  — the entry-level form of (A·X)·W = A·(X·W). It is distributivity and the exchange of two finite sums, which hold
  for reals and fail at infinities, hence the real witnesses. Also: the coercion ℝ → EReal commutes with finite sums.
-/
import Idealize.ShloMosaic.PureOps.Ideal
import Idealize.ShloMosaic.PureOps.Ideal.Laws

noncomputable section

namespace Cert.ContractionOrder

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the extended reals, for REAL entries: contracting `k` first and `c` second equals contracting `c` first and
    `k` second (distributivity and the exchange of two finite sums, which hold for reals and fail at infinities). -/
theorem reassoc {K C : ℕ} (a : Fin K → EReal) (x : Fin K → Fin C → EReal) (w : Fin C → EReal)
    (ha : ∀ k, ∃ r : ℝ, a k = (r : EReal)) (hx : ∀ k c, ∃ r : ℝ, x k c = (r : EReal)) (hw : ∀ c, ∃ r : ℝ, w c = (r : EReal)) :
    ∑ c : Fin C, (∑ k : Fin K, a k * x k c) * w c = ∑ k : Fin K, a k * ∑ c : Fin C, x k c * w c := by
  -- every entry is the coercion of a real
  choose ra hra using ha
  choose rx hrx using hx
  choose rw hrw using hw
  simp only [hra, hrx, hrw]
  -- both sides are coercions of real sums: products and finite sums of coercions are coercions
  simp only [← EReal.coe_mul, ← coe_finset_sum]
  congr 1
  -- in ℝ: distribute, exchange the two sums, reassociate the products
  simp only [Finset.sum_mul, Finset.mul_sum]
  rw [Finset.sum_comm]
  exact Finset.sum_congr rfl fun k _ => Finset.sum_congr rfl fun c _ => by ring

end Cert.ContractionOrder

end
-- ==== Proof.Orders.lean ====
/-
  The two orders of contraction agree on real entries, and the whole result as ONE function of the four inputs.

  Entry (r, q) of the filter-first product is Σ_c (Σ_k a(r,k)·xr(k,col q c))·w(c, q%192); of the weights-first product
  Σ_k a(r,k)·Σ_c xr(k,col q c)·w(c, q%192). For real entries these are one double sum (distributivity and the exchange of
  two finite sums); at an infinite entry they need not be, which is where the finiteness of the inputs is used.
-/
import proofs.«158763_j17841294148276_2_alg».proof.Proof.Forms
import proofs.«158763_j17841294148276_2_alg».proof.Proof.LibContractionOrder
import Idealize.ShloMosaic.Lib.Pipeline.Value

noncomputable section

namespace Cert.Forms

open Idealize.ShloMosaic Idealize.ShloMosaic.ValueIdx

/-- Filter first equals weights first, when every entry of the three operands is a real number. -/
theorem filterThenWeights_eq (a : (⟨2, ![1024, 3072]⟩ : Shape).Idx → EReal) (w : (⟨2, ![64, 192]⟩ : Shape).Idx → EReal)
    (xr : (⟨2, ![3072, 8192]⟩ : Shape).Idx → EReal)
    (ha : ∀ i, ∃ r : ℝ, a i = (r : EReal)) (hw : ∀ i, ∃ r : ℝ, w i = (r : EReal)) (hx : ∀ i, ∃ r : ℝ, xr i = (r : EReal)) :
    filterThenWeights a w xr = weightsThenFilter a w xr :=
  funext fun i => Cert.ContractionOrder.reassoc (fun k => a (ix2 (i 0) k)) (fun k c => xr (ix2 k (xcol (i 1) c))) (fun c => w (ix2 c (wcol (i 1))))
    (fun k => ha _) (fun k c => hx _) (fun c => hw _)

/-- A reshape of an array of reals is an array of reals: each entry of the reshaped array is an entry of the array. -/
theorem real_shapeCast {s t : Shape} (x : s.Idx → EReal) (h : s.ShapeCasts t) (hx : ∀ i, ∃ r : ℝ, x i = (r : EReal)) :
    ∀ j, ∃ r : ℝ, shapeCast t x h j = (r : EReal) := by
  intro j
  unfold shapeCast
  exact hx _

/-- The whole computation as one function of the input x [32,64,12,1024], the weights [3,64,64], the bias [64] and
    the filter [1024,3072]: the weights flattened to [64,192], the input viewed as [3072,8192], the weights-first product
    [1024,24576] regrouped as [393216,64] and then [32,12,1024,64], the bias added, the axes permuted, the input added
    back. The four reshapes' side conditions are parameters (propositions about literal shapes). -/
def result (x0 : (⟨4, ![32, 64, 12, 1024]⟩ : Shape).Idx → EReal) (x1 : (⟨3, ![3, 64, 64]⟩ : Shape).Idx → EReal)
    (x2 : (⟨1, ![64]⟩ : Shape).Idx → EReal) (x3 : (⟨2, ![1024, 3072]⟩ : Shape).Idx → EReal)
    (hw : (⟨3, ![3, 64, 64]⟩ : Shape).ShapeCasts ⟨2, ![64, 192]⟩)
    (hx : (⟨4, ![32, 64, 12, 1024]⟩ : Shape).ShapeCasts ⟨2, ![3072, 8192]⟩)
    (h1 : (⟨2, ![1024, 24576]⟩ : Shape).ShapeCasts ⟨2, ![393216, 64]⟩)
    (h2 : (⟨2, ![393216, 64]⟩ : Shape).ShapeCasts ⟨4, ![32, 12, 1024, 64]⟩) :
    (⟨4, ![32, 64, 12, 1024]⟩ : Shape).Idx → EReal :=
  biasPermuteResidual
    (shapeCast ⟨4, ![32, 12, 1024, 64]⟩
      (shapeCast ⟨2, ![393216, 64]⟩ (weightsThenFilter x3 (shapeCast ⟨2, ![64, 192]⟩ x1 hw) (shapeCast ⟨2, ![3072, 8192]⟩ x0 hx)) h1) h2)
    x2 x0

end Cert.Forms

end
-- ==== Proof.Finite.lean ====
import proofs.«158763_j17841294148276_2_alg».proof.Pre_finite_inputs
import proofs.«158763_j17841294148276_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Finite

open Idealize.ShloMosaic Cert.Pre_finite_inputs

/-- The rank-0 shape has exactly one index. -/
local instance : Subsingleton S_.Idx := ⟨fun a b => funext fun d => d.elim0⟩

/-- The f32 pattern `0x7F800000` denotes `+∞`. -/
theorem ofBits_inf : Ideal.ofBits .f32 0x7F800000#32 = (⊤ : EReal) := by simp [Ideal.ofBits, Ideal.ieee]

/-- An extended real whose absolute value `max x (-x)` lies strictly below `+∞` is a real: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element of `|x| < +inf`, read back: the comparison of `|x i|` with the broadcast `+∞` being 1 makes `x i` a real. -/
theorem real_of_lt_inf {s : Shape} (hb : S_.BroadcastsInDim s ![]) (x : FVec Ideal s .f32) (i : s.Idx)
    (h : cmpf .olt (Host.absf x) (broadcastInDim s ![] hb (constant (F := Ideal) S_ .f32 0x7F800000#32)) i = 1#1) :
    ∃ r : ℝ, x i = (r : EReal) := by
  rw [ValueIdx.cmpf_apply, ValueIdx.broadcastInDim_scalar_apply, ValueIdx.constant_apply, ofBits_inf, Ideal.cmpf_def] at h
  refine real_of_abs_lt_top (x i) ?_
  -- the ordered "less than" of the extended reals, as a one-bit word
  have h' : BitVec.ofBool (decide (max (x i) (-(x i)) < ⊤)) = 1#1 := h
  have hb : ∀ b : Bool, BitVec.ofBool b = 1#1 → b = true := by decide
  exact of_decide_eq_true (hb _ h')

/-- The precondition, read: when `finite_inputs` is all ones at the ideal instance, every entry of each of the four float
    inputs is a real number. -/
theorem real_of_pre (x0 : FVec Ideal S32x64x12x1024 .f32) (x1 : FVec Ideal S3x64x64 .f32) (x2 : FVec Ideal S64 .f32)
    (x3 : FVec Ideal S1024x3072 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  -- the result has one index; there the function is the conjunction of four reductions by `and`
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  -- each reduction over all axes that is 1 had a 1 at every index, and a 1 there makes the entry real
  exact ⟨fun i => real_of_lt_inf _ x0 i (Host.reduce_andi_all _ _ _ _ _ h0' i),
    fun i => real_of_lt_inf _ x1 i (Host.reduce_andi_all _ _ _ _ _ h1 i),
    fun i => real_of_lt_inf _ x2 i (Host.reduce_andi_all _ _ _ _ _ h2 i),
    fun i => real_of_lt_inf _ x3 i (Host.reduce_andi_all _ _ _ _ _ h3 i)⟩

end Cert.Finite

end
-- ==== Proof.RefShape.lean ====
import proofs.«158763_j17841294148276_2_alg».proof.Proof.Gen.ReferenceIdeal.Read
import proofs.«158763_j17841294148276_2_alg».proof.Proof.Forms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Cert.Forms Idealize.ShloMosaic Idealize.ShloMosaic.TcCoe Idealize.ShloMosaic.ValueIdx Idealize.SL.Sem

/-- A [393216, 64] array viewed as [32, 12, 1024, 64], read at an index: the entry with the same row-major position. -/
theorem cast_393216x64_apply {α : Type} (y : S393216x64.Idx → α) (h : S393216x64.ShapeCasts S32x12x1024x64)
    (i : S32x12x1024x64.Idx) : shapeCast S32x12x1024x64 y h i = y (idx_main_v9 i) :=
  shapeCast_apply y h i (idx_main_v9 i) (by
    rewrite [Shape.rowMajor_val_two, Shape.rowMajor_val_four]
    have h0 : (i 0).val < 32 := (i 0).isLt
    have h1 : (i 1).val < 12 := (i 1).isLt
    have h2 : (i 2).val < 1024 := (i 2).isLt
    have h3 : (i 3).val < 64 := (i 3).isLt
    show ((((i 0).val * 12 + (i 1).val) * 1024 + (i 2).val) * 64 + (i 3).val) / 64 * 64
          + ((((i 0).val * 12 + (i 1).val) * 1024 + (i 2).val) * 64 + (i 3).val) % 64
        = (((i 0).val * 12 + (i 1).val) * 1024 + (i 2).val) * 64 + (i 3).val
    omega)

/-- The transpose's index map sends (b, c, t, n) to (b, t, n, c). -/
theorem idx_main_v10_ix4 (b : Fin 32) (c : Fin 64) (t : Fin 12) (n : Fin 1024) :
    idx_main_v10 (ix4 b c t n) = ix4 b t n c :=
  funext fun a => match a with
    | ⟨0, _⟩ => rfl
    | ⟨1, _⟩ => rfl
    | ⟨2, _⟩ => rfl
    | ⟨3, _⟩ => rfl

/-- The bias entry that the flattened row of (b, t, n, c) reads is the one of channel c: the last axis has size 64. -/
theorem idx_bias_ix4 (b : Fin 32) (c : Fin 64) (t : Fin 12) (n : Fin 1024) :
    idx_main_v6 (idx_main_v7 (idx_main_v9 (ix4 b t n c))) = ix1 c :=
  funext fun a => match a with
    | ⟨0, _⟩ => Fin.ext (by
        show (((b.val * 12 + t.val) * 1024 + n.val) * 64 + c.val) % 64 = c.val
        have hc := c.isLt
        omega)

theorem ref_eq (x0 : (⟨S32x64x12x1024, .f32⟩ : BufTy).Contents (Elt Ideal)) (x1 : (⟨S3x64x64, .f32⟩ : BufTy).Contents (Elt Ideal))
    (x2 : (⟨S64, .f32⟩ : BufTy).Contents (Elt Ideal)) (x3 : (⟨S1024x3072, .f32⟩ : BufTy).Contents (Elt Ideal)) :
    val_main_v11 (F := Ideal) x0 x1 x2 x3
      = biasPermuteResidual (shapeCast S32x12x1024x64 (val_main_v5 (F := Ideal) x0 x1 x3) shapeCasts_S393216x64_S32x12x1024x64) x2 x0 := by
  funext i
  obtain ⟨b, c, t, n, rfl⟩ : ∃ (b : Fin 32) (c : Fin 64) (t : Fin 12) (n : Fin 1024), i = ix4 b c t n :=
    ⟨i 0, i 1, i 2, i 3, eq_ix4 i⟩
  -- the reference's last stages, read at the index
  rw [val_main_v11_apply, val_main_v10_apply, val_main_v9_apply, val_main_v8_apply, val_main_v7_apply, val_main_v6_apply,
    idx_main_v10_ix4, idx_bias_ix4]
  -- the right-hand side at the index: its coordinates are b, c, t, n
  show _ = (shapeCast S32x12x1024x64 (val_main_v5 (F := Ideal) x0 x1 x3) shapeCasts_S393216x64_S32x12x1024x64 (ix4 b t n c)
      + x2 (ix1 c)) + x0 (ix4 b c t n)
  rw [cast_393216x64_apply]
  rfl

end Cert.ReferenceIdeal.RefValue

end
-- ==== Proof.RefMatmul.lean ====
/-
  The reference's two matrix products, read at an index.

  The reference reshapes the input to rows of 64 channels, multiplies by the flattened weights [64,192], regroups the
  product as [3072, 24576] and multiplies the filter [1024,3072] into it. Row `k·128 + q/192` of the first product is
  row `k`, column group `q/192` of the view [3072,8192] of the input (24576 = 128·192 and 8192 = 128·64), so entry
  (r, q) of the second product is
      Σ_k filter(r,k) · Σ_c view(k, (q/192)·64 + c) · w(c, q % 192):
  the weights contracted first, the filter second.
-/
import proofs.«158763_j17841294148276_2_alg».proof.Proof.Gen.ReferenceIdeal.Read
import proofs.«158763_j17841294148276_2_alg».proof.Proof.Forms
import Idealize.ShloMosaic.Lib.Pipeline.Value
import Idealize.ShloMosaic.Lib.ValueIdx
import Idealize.ShloMosaic.PureOps.Ideal.Laws

noncomputable section

namespace Cert.ReferenceIdeal.RefMatmul

open Cert.ReferenceIdeal Cert.ReferenceIdeal.Gen Cert.ReferenceIdeal.Read Cert.Forms Idealize.ShloMosaic Idealize.ShloMosaic.TcCoe Idealize.ShloMosaic.ValueIdx Idealize.SL.Sem

/-- The second product at (r, q): the filter's row `r` against, for each `k`, the first product's entry, itself a sum
    over the 64 channels of the view's entry times the weight. -/
theorem mm_eq (x0 : (⟨S32x64x12x1024, .f32⟩ : BufTy).Contents (Elt Ideal)) (x1 : (⟨S3x64x64, .f32⟩ : BufTy).Contents (Elt Ideal))
    (x3 : (⟨S1024x3072, .f32⟩ : BufTy).Contents (Elt Ideal))
    (hx : S32x64x12x1024.ShapeCasts (⟨2, ![3072, 8192]⟩ : Shape)) :
    val_main_v4 (F := Ideal) x0 x1 x3
      = weightsThenFilter x3 (shapeCast S64x192 x1 shapeCasts_S3x64x64_S64x192) (shapeCast (⟨2, ![3072, 8192]⟩ : Shape) x0 hx) := by
  funext i
  obtain ⟨r, q, rfl⟩ : ∃ (r : Fin 1024) (q : Fin 24576), i = ix2 r q := ⟨i 0, i 1, eq_ix2 i⟩
  rw [val_main_v4_apply]
  show _ = ∑ k : Fin 3072, x3 (ix2 r k) * ∑ c : Fin 64,
      shapeCast (⟨2, ![3072, 8192]⟩ : Shape) x0 hx (ix2 k (xcol q c)) * shapeCast S64x192 x1 shapeCasts_S3x64x64_S64x192 (ix2 c (wcol q))
  refine Finset.sum_congr rfl fun k _ => ?_
  have e3 : lidx_main_v4 (ix2 r q) k = ix2 r k := funext fun a => Fin.ext (by
    match a with
    | ⟨0, _⟩ => rfl
    | ⟨1, _⟩ => rfl)
  rw [e3, val_main_v3_apply, val_main_v2_apply]
  refine congrArg (x3 (ix2 r k) * ·) (Finset.sum_congr rfl fun c _ => ?_)
  have hk : k.val < 3072 := k.isLt
  have hq : q.val < 24576 := q.isLt
  have hc : c.val < 64 := c.isLt
  -- the view's entry: both are the input at one row-major position
  have ex : val_main_v0 (F := Ideal) x0 (lidx_main_v2 (idx_main_v3 (ridx_main_v4 (ix2 r q) k)) c)
      = shapeCast (⟨2, ![3072, 8192]⟩ : Shape) x0 hx (ix2 k (xcol q c)) := by
    rw [val_main_v0_apply]
    refine (shapeCast_apply x0 hx (ix2 k (xcol q c)) _ ?_).symm
    rewrite [Shape.rowMajor_val_four, Shape.rowMajor_val_two]
    show ((((k.val * 24576 + q.val) / 192 * 64 + c.val) / 786432 * 64 + ((k.val * 24576 + q.val) / 192 * 64 + c.val) / 12288 % 64) * 12
        + ((k.val * 24576 + q.val) / 192 * 64 + c.val) / 1024 % 12) * 1024 + ((k.val * 24576 + q.val) / 192 * 64 + c.val) % 1024
      = k.val * 8192 + (q.val / 192 * 64 + c.val)
    omega
  -- the weight's entry
  have ew : val_main_v1 (F := Ideal) x1 (ridx_main_v2 (idx_main_v3 (ridx_main_v4 (ix2 r q) k)) c)
      = shapeCast S64x192 x1 shapeCasts_S3x64x64_S64x192 (ix2 c (wcol q)) := by
    unfold val_main_v1
    refine congrArg _ (funext fun a => Fin.ext ?_)
    match a with
    | ⟨0, _⟩ => rfl
    | ⟨1, _⟩ =>
      show (k.val * 24576 + q.val) % 192 = q.val % 192
      omega
  rw [ex, ew]

end Cert.ReferenceIdeal.RefMatmul

end
-- ==== Proof.Bridge.lean ====
/-
  The two runs end at ONE function of the inputs.

  Kernel side: region 1 leaves, in the result array, the bias-permute-residual form of what it found in its three
  operands; its first operand is the twice-reshaped array region 0 left, which is the filter-first product of the
  (format-changed, hence unchanged) filter, the flattened weights and the [3072,8192] view of the input; the other two
  operands are the launch contents of the bias and the input. For finite inputs the filter-first product is the
  weights-first product, so the result array is `Cert.Forms.result` of the launch contents.
  Reference side: its last stage is the same bias-permute-residual form of its own twice-reshaped weights-first product.
-/
import proofs.«158763_j17841294148276_2_alg».proof.Defs
import proofs.«158763_j17841294148276_2_alg».proof.Proof.KernelRun
import proofs.«158763_j17841294148276_2_alg».proof.Proof.HostSide
import proofs.«158763_j17841294148276_2_alg».proof.Proof.Blocks0
import proofs.«158763_j17841294148276_2_alg».proof.Proof.Blocks1
import proofs.«158763_j17841294148276_2_alg».proof.Proof.Orders
import proofs.«158763_j17841294148276_2_alg».proof.Proof.Finite
import proofs.«158763_j17841294148276_2_alg».proof.Proof.RefShape
import proofs.«158763_j17841294148276_2_alg».proof.Proof.RefMatmul
import proofs.«158763_j17841294148276_2_alg».proof.Proof.Gen.ReferenceIdeal.Run
import proofs.«158763_j17841294148276_2_alg».proof.Proof.Gen.ReferenceIdeal.Read
import proofs.«158763_j17841294148276_2_alg».proof.Proof.Gen.Pre_finite_inputs

noncomputable section

open Idealize.ShloMosaic Idealize.ShloMosaic.TcCoe Idealize.ShloMosaic.ValueIdx Idealize.SL.Sem

/-! ## The kernel's result array, from the launch contents -/

namespace Cert.KernelIdeal.Bridge

open Cert.KernelIdeal Cert.KernelIdeal.Gen Cert.Forms

variable (m : (ℓ : Loc nD τ sig) → Buf (Elt Ideal) ℓ) (ρ : Dev nD → PrngReg)

/-- A change of float format is the identity on the extended reals. -/
theorem truncf_id {s : Shape} {φ ψ : FTy} (a : FVec Ideal s φ) (h : ψ.bits < φ.bits) : (truncf ψ a h : FVec Ideal s ψ) = a :=
  funext fun _ => rfl

/-- What region 1 leaves in the result array, for inputs whose entries are all real: `result` of the launch contents. -/
theorem kernel_value (c : Dev nD)
    (h0 : ∀ i, ∃ r : ℝ, m ((c.tc : Thread nD τ).loc main_arg0) i = (r : EReal))
    (h1 : ∀ i, ∃ r : ℝ, m ((c.tc : Thread nD τ).loc main_arg1) i = (r : EReal))
    (h3 : ∀ i, ∃ r : ℝ, m ((c.tc : Thread nD τ).loc main_arg3) i = (r : EReal)) :
    (dat1 (V3 m ρ) c).arrAt 3 cfg1.N
      = result (m ((c.tc : Thread nD τ).loc main_arg0)) (m ((c.tc : Thread nD τ).loc main_arg1))
          (m ((c.tc : Thread nD τ).loc main_arg2)) (m ((c.tc : Thread nD τ).loc main_arg3))
          shapeCasts_S3x64x64_S64x192 shapeCasts_S32x64x12x1024_S3072x8192 shapeCasts_S1024x24576_S393216x64
          shapeCasts_S393216x64_S32x12x1024x64 := by
  rw [Cert.KernelIdeal.Blocks1.final1 (V3 m ρ) c, Cert.KernelIdeal.HostSide.V3_v5, Cert.KernelIdeal.HostSide.V3_arg2,
    Cert.KernelIdeal.HostSide.V3_arg0, Cert.KernelIdeal.Blocks0.final0 (V1 m ρ) c, Cert.KernelIdeal.HostSide.V1_v2,
    Cert.KernelIdeal.HostSide.V1_v0, Cert.KernelIdeal.HostSide.V1_v1, truncf_id,
    filterThenWeights_eq _ _ _ h3 (real_shapeCast _ _ h1) (real_shapeCast _ _ h0)]
  rfl

end Cert.KernelIdeal.Bridge

/-! ## The reference's result, as the same function -/

namespace Cert.ReferenceIdeal.Bridge

open Cert.ReferenceIdeal Cert.ReferenceIdeal.Gen Cert.ReferenceIdeal.Read Cert.Forms

/-- The reference's last stage is `result` of its arguments. -/
theorem ref_value (x0 : (⟨S32x64x12x1024, .f32⟩ : BufTy).Contents (Elt Ideal)) (x1 : (⟨S3x64x64, .f32⟩ : BufTy).Contents (Elt Ideal))
    (x2 : (⟨S64, .f32⟩ : BufTy).Contents (Elt Ideal)) (x3 : (⟨S1024x3072, .f32⟩ : BufTy).Contents (Elt Ideal))
    (hx : S32x64x12x1024.ShapeCasts (⟨2, ![3072, 8192]⟩ : Shape)) :
    val_main_v11 (F := Ideal) x0 x1 x2 x3
      = result x0 x1 x2 x3 shapeCasts_S3x64x64_S64x192 hx shapeCasts_S1024x24576_S393216x64 shapeCasts_S393216x64_S32x12x1024x64 := by
  rw [Cert.ReferenceIdeal.RefValue.ref_eq]
  unfold val_main_v5
  rw [Cert.ReferenceIdeal.RefMatmul.mm_eq x0 x1 x3 hx]
  rfl

end Cert.ReferenceIdeal.Bridge

/-! ## The claim's last conjunct -/

namespace Cert.Proof.Bridge

/-- Both programs end with the result buffer at `result` of the (agreeing) inputs: the kernel by its two regions read
    back through the host reshapes, under the precondition that makes the two orders of contraction agree; the
    reference by its own run. -/
theorem algebraic [hKernelIdeal : Cert.KernelIdeal.Facts] [hReferenceIdeal : Cert.ReferenceIdeal.Facts]
    [hPre : Cert.Pre_finite_inputs.Facts] :
    Cert.algebraic_KernelIdeal_ReferenceIdeal (hKernelIdeal := hKernelIdeal) (hReferenceIdeal := hReferenceIdeal)
      (hPre_finite_inputs := hPre) := by
  intro m ρ m' ρ' hpre hagree
  refine ⟨fun c => Cert.Forms.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      Cert.KernelIdeal.Facts₀.shapeCasts_S3x64x64_S64x192 Cert.KernelIdeal.Facts₀.shapeCasts_S32x64x12x1024_S3072x8192
      Cert.KernelIdeal.Facts₀.shapeCasts_S1024x24576_S393216x64 Cert.KernelIdeal.Facts₀.shapeCasts_S393216x64_S32x12x1024x64, ?_, ?_⟩
  · refine (θ_run Cert.KernelIdeal.defs _ _).mono (fun r h c => ⟨(h c).1.trans ?_, (h c).2⟩)
      (Cert.KernelIdeal.RunValue.run_out (F := Ideal) m ρ)
    obtain ⟨r0, r1, -, r3⟩ := Cert.Finite.real_of_pre _ _ _ _ (hpre c)
    exact Cert.KernelIdeal.Bridge.kernel_value m ρ c r0 r1 r3
  · refine (θ_run Cert.ReferenceIdeal.defs _ _).mono (fun r h c => ⟨?_, (h c).2⟩)
      (Cert.ReferenceIdeal.Value.run (F := Ideal) m' ρ')
    rw [(h c).1, Cert.ReferenceIdeal.Read.val_main_v11_eq, (hagree c).1, (hagree c).2.1, (hagree c).2.2.1, (hagree c).2.2.2]
    exact Cert.ReferenceIdeal.Bridge.ref_value _ _ _ _ Cert.KernelIdeal.Facts₀.shapeCasts_S32x64x12x1024_S3072x8192

end Cert.Proof.Bridge

end
-- ==== Proof.lean ====
/- A graph-convolution layer: out = transpose(reshape(filter · reshape(reshape(x) · W)) + bias) + x.

   The kernel computes it in two grid loops. The first, over 16 column tiles, multiplies the filter [1024,3072] into a
   column tile of the [3072,8192] view of the input FIRST and only then multiplies each 64-wide group by the flattened
   weights [64,192] — (filter · view) · W instead of the reference's filter · (view · W). The second, over the 32 batch
   entries, adds the bias, permutes [12·1024, 64] to [64, 12·1024] and adds the input back. Between and before them the
   host only reshapes (and changes a float format, which is the identity on the extended reals).

   On the extended reals the two orders of contraction are the same double sum exactly when distributivity and the
   exchange of the two finite sums hold, i.e. for REAL entries: this is where the precondition (every input finite) is
   used. Everything else is index bookkeeping: 24576 = 128·192 and 8192 = 128·64 make row `k·128 + j` of the reference's
   first product the group `j` of row `k` of the view.

   The three frames are the generated ones (the reference's is its generated run with the result dropped); the
   idealization rewrote nothing, so `preserves` is `True`; the last conjunct is `Cert.Proof.Bridge.algebraic`: both runs
   end with the result buffer at `Cert.Forms.result` of the inputs. -/
import proofs.«158763_j17841294148276_2_alg».proof.Defs
import proofs.«158763_j17841294148276_2_alg».proof.Proof.Gen.Kernel
import proofs.«158763_j17841294148276_2_alg».proof.Proof.Gen.Kernel.Skeleton
import proofs.«158763_j17841294148276_2_alg».proof.Proof.Gen.Kernel.Launch
import proofs.«158763_j17841294148276_2_alg».proof.Proof.Gen.Kernel.Points
import proofs.«158763_j17841294148276_2_alg».proof.Proof.Gen.Kernel.Frame
import proofs.«158763_j17841294148276_2_alg».proof.Proof.Gen.KernelIdeal
import proofs.«158763_j17841294148276_2_alg».proof.Proof.Gen.KernelIdeal.Skeleton
import proofs.«158763_j17841294148276_2_alg».proof.Proof.Gen.KernelIdeal.Launch
import proofs.«158763_j17841294148276_2_alg».proof.Proof.Gen.KernelIdeal.Points
import proofs.«158763_j17841294148276_2_alg».proof.Proof.Gen.KernelIdeal.Frame
import proofs.«158763_j17841294148276_2_alg».proof.Proof.Gen.ReferenceIdeal
import proofs.«158763_j17841294148276_2_alg».proof.Proof.Gen.Pre_finite_inputs
import proofs.«158763_j17841294148276_2_alg».proof.Proof.Gen.ReferenceIdeal.Run
import proofs.«158763_j17841294148276_2_alg».proof.Proof.Gen.ReferenceIdeal.Read
import proofs.«158763_j17841294148276_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Proof.Bridge.algebraic⟩

end Cert.Proof

end
